-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  main_v7
-- ==== Kernel.lean ====
abbrev S8192x4096 : Shape := ⟨2, ![8192, 4096]⟩
abbrev S8192 : Shape := ⟨1, ![8192]⟩
abbrev S8192x1 : Shape := ⟨2, ![8192, 1]⟩
abbrev S1024x2048 : Shape := ⟨2, ![1024, 2048]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192x1, .i32⟩
  | .hbm, ⟨3, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S1024x2048, .f32⟩
  | .local _ .vmem, ⟨5, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S8192x1 : S8192.ShapeCasts S8192x1
  iota_S1024x2048_d1_w32 : S1024x2048.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S4096 : Shape := ⟨1, ![4096]⟩
abbrev S1x4096 : Shape := ⟨2, ![1, 4096]⟩
abbrev S8192x1 : Shape := ⟨2, ![8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S4096, .i32⟩
  | .hbm, ⟨3, _⟩ => ⟨S1x4096, .i32⟩
  | .hbm, ⟨4, _⟩ => ⟨S8192x1, .i32⟩
  | .hbm, ⟨5, _⟩ => ⟨S8192x4096, .i32⟩
  | .hbm, ⟨6, _⟩ => ⟨S8192x4096, .i32⟩
  | .hbm, ⟨7, _⟩ => ⟨S8192x4096, .i1⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8192_S8192x1_0 : S8192.BroadcastsInDim S8192x1 (![0] : Fin 1 → Fin S8192x1.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.PrefixMask.lean ====
/-
  Prefix masking of the rows of a matrix.

  For an 8192 × 4096 matrix `x` of extended reals and one signed 32-bit threshold per row, the masked matrix keeps
  entry (r, j) when the column number j, as a signed word, is below row r's threshold, and is zero otherwise:

      keep x thr (r, j) = x (r, j)   if j <ₛ thr r,      0   otherwise.

  Two scalar laws carry the whole comparison of the two programs.

  * `slt_tile`: the columns are cut into two tiles of 2048. Inside tile p a column j = p · 2048 + b has the local
    number b, and one may compare b with the threshold moved down by the tile's offset instead of j with the
    threshold itself: b <ₛ s − p · 2048 ⟺ p · 2048 + b <ₛ s. On 32-bit words this needs that s − p · 2048 does not
    wrap round, which holds for every s ≥ 0 (then −2048 ≤ s − p · 2048 < 2³¹). It FAILS for s within 2048 of the
    smallest word: there s − 2048 wraps to a large positive word and the left side holds for every b while the right
    side holds for none.
  * `mul_indicator`: multiplying by the comparison's bit read as a number (0 or 1) is the same choice:
    x · 1 = x and x · 0 = 0 for EVERY extended real x, the infinities included, so no finiteness is used.
-/
import Idealize.ShloMosaic.PureOps.Ideal
import Idealize.ShloMosaic.PureOps.Ideal.Laws
import Idealize.ShloMosaic.Lib.ValueIdx

noncomputable section

namespace Cert.PrefixMask

open Idealize.ShloMosaic Idealize.ShloMosaic.ValueIdx

/-- The matrix's shape. -/
abbrev Mat : Shape := ⟨2, ![8192, 4096]⟩

/-- The row of a matrix index, as a number below 8192. -/
abbrev row (i : Mat.Idx) : Fin 8192 := ⟨(i 0).val, idx2_lt0 i⟩

/-- THE SPECIFICATION: entry (r, j) of `x` where column j is below row r's threshold (signed), zero from there on. -/
def keep (x : Mat.Idx → EReal) (thr : Fin 8192 → BitVec 32) : Mat.Idx → EReal :=
  fun i => if (BitVec.ofNat 32 (i 1).val).slt (thr (row i)) then x i else 0

/-- A word that is non-negative as a signed number is below 2³¹ as an unsigned one. -/
theorem toNat_lt_of_nonneg (s : BitVec 32) (hs : 0 ≤ s.toInt) : s.toNat < 2 ^ 31 := by
  have := s.isLt
  rw [BitVec.toInt_eq_toNat_cond] at hs
  split at hs <;> omega

/-- Comparing inside a column tile: for a non-negative threshold `s`, tile `p` of two and local column `b` of 2048,
    `b <ₛ s − p · 2048` exactly when `p · 2048 + b <ₛ s` — the subtraction does not wrap round. -/
theorem slt_tile (s : BitVec 32) (hs : 0 ≤ s.toInt) (p b : Nat) (hp : p < 2) (hb : b < 2048) :
    (BitVec.ofNat 32 b).slt (s - BitVec.ofNat 32 p * 2048#32) = (BitVec.ofNat 32 (p * 2048 + b)).slt s := by
  have hsn := toNat_lt_of_nonneg s hs
  rw [Bool.eq_iff_iff, BitVec.slt_iff_toInt_lt, BitVec.slt_iff_toInt_lt]
  simp only [BitVec.toInt_eq_toNat_cond, BitVec.toNat_sub, BitVec.toNat_mul, BitVec.toNat_ofNat]
  interval_cases p <;> (split_ifs <;> omega)

/-- Multiplying by a one-bit word read as a number is choosing: `x · 1 = x`, `x · 0 = 0`, for every extended real. -/
theorem mul_indicator (x : EReal) (b : BitVec 1) :
    x * (((b.toNat : ℝ)) : EReal) = if b = 1#1 then x else 0 := by
  have h : b = 0#1 ∨ b = 1#1 := by revert b; decide
  rcases h with rfl | rfl <;> simp

/-- A comparison's bit is one exactly when the comparison holds. -/
theorem ofBool_eq_one (t : Bool) : BitVec.ofBool t = 1#1 ↔ t = true := by cases t <;> decide

/-- ONE ENTRY OF A TILE IS THE SPECIFICATION'S: at a matrix index `i` whose column is `p · 2048 + b`, choosing between
    `x i` and zero by the local comparison against the moved threshold is `keep x thr i`, the thresholds being
    non-negative. -/
theorem keep_of_tile (x : Mat.Idx → EReal) (thr : Fin 8192 → BitVec 32) (hthr : ∀ r, 0 ≤ (thr r).toInt)
    (i : Mat.Idx) (p b : Nat) (hp : p < 2) (hb : b < 2048) (hi : (i 1).val = p * 2048 + b)
    (sv : BitVec 32) (hsv : sv = thr (row i)) (xv : EReal) (hxv : xv = x i) :
    (if (BitVec.ofNat 32 b).slt (sv - BitVec.ofNat 32 p * 2048#32) then xv else 0) = keep x thr i := by
  subst hsv hxv
  unfold keep
  rw [slt_tile _ (hthr _) p b hp hb, hi]

end Cert.PrefixMask

end
-- ==== Proof.Thresholds.lean ====
/-
  The precondition, decoded: every threshold is non-negative.

  The precondition is the conjunction of two tests, each an "and" over a whole array that came out one: every entry of
  `x` is finite, and every threshold is at least zero as a signed word. An "and" over an array that is one was one at
  every entry; the second test at entry r says `0 ≤ thr r` (signed). Only this half is used: the masked product needs
  no finiteness.
-/
import proofs.«106428_j86569360818324_2_alg».proof.Pre_finite_inputs
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs

/-- The scalar shape has one index. -/
instance : Subsingleton S_.Idx := ⟨fun a b => funext fun d => d.elim0⟩

/-- Where the precondition holds, threshold `r` is non-negative as a signed word. -/
theorem thresholds_nonneg [Facts] {F : FTy → Type} [FloatOps F] (x : FVec F S8192x4096 .f32) (s : IVec S8192 32)
    (h : fn (F := F) x s = fun _ => 1#1) (r : Fin 8192) : 0 ≤ (s (ix1 r)).toInt := by
  have e := congrFun h ix0
  dsimp only [fn] at e
  obtain ⟨-, e2⟩ := IntOp.andi_eq_one.mp e
  have e3 := Host.reduce_andi_all _ _ _ _ ix0 e2 (ix1 r)
  exact IntOp.cmpi_sge.mp e3

end Cert.Pre_finite_inputs.Decode

end
-- ==== Proof.KernelValue.lean ====
/-
  What the idealized kernel leaves in its result array.

  The kernel walks an 8 × 2 grid of tiles of 1024 rows by 2048 columns. At the tile in tile-row `q` and tile-column `p`
  it reads the tile of `x` and the 1024 thresholds of its rows (a column: the thresholds reshaped to 8192 × 1, of which
  the tile takes rows q · 1024 … q · 1024 + 1023), moves each threshold down by the tile's column offset p · 2048, and
  keeps entry (a, b) of the tile when the LOCAL column number b is below the moved threshold, writing zero otherwise.
  By `slt_tile` that is the global comparison p · 2048 + b <ₛ threshold for non-negative thresholds, so each tile
  written back is the tile of `keep x thr`; the sixteen tiles cover the matrix, so the result array is `keep x thr`.
-/
import proofs.«106428_j86569360818324_2_alg».proof.Proof.KernelIdealFrame
import proofs.«106428_j86569360818324_2_alg».proof.Proof.PrefixMask
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.MaskValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open Cert.PrefixMask

variable (m : (ℓ : Loc nD τ sig) → Buf (Elt Ideal) ℓ) (ρ : Dev nD → PrngReg)

/-! ## The thresholds as the kernel finds them: a column -/

/-- The array the kernel's second window reads is the thresholds reshaped to a column of 8192 rows. -/
theorem column (c : Dev nD) : (V m c main_v0 : S8192x1.Idx → BitVec 32)
    = shapeCast S8192x1 (m ((c : Thread nD τ).loc main_arg1)) shapeCasts_S8192_S8192x1 := by
  dsimp only [GenP.V, Gen.hostOps0]; after_results; rfl

/-- Row `r` of the column is threshold `r`. -/
theorem column_apply (c : Dev nD) (r : Fin 8192) :
    (V m c main_v0 : S8192x1.Idx → BitVec 32) (ix2 r 0) = m ((c : Thread nD τ).loc main_arg1) (ix1 r) := by
  rw [column]
  exact shapeCast_apply _ _ (ix2 r 0) (ix1 r) (by
    rw [Shape.rowMajor_val_two, Shape.rowMajor_val_one]; show r.val = r.val * 1 + 0; omega)

/-! ## One entry of what the body stores -/

/-- Entry (a, b) of the stored tile, from the tile of `x` (`v8`) and the tile's 1024 thresholds (`v2`) at grid point
    `g`: the local column `b` against row `a`'s threshold moved down by 2048 times the point's column coordinate. -/
theorem pay_apply (g : grid0.Coords) (v2 : Vec Ideal S1024x1 .i32) (v8 : Vec Ideal S1024x2048 .f32) (a : Fin 1024) (b : Fin 2048) :
    k0_pay1 (F := Ideal) g v2 v8 (ix2 a b)
      = if (BitVec.ofNat 32 b.val).slt (v2 (ix2 a 0) - BitVec.ofNat 32 (g 1).val * 2048#32) then v8 (ix2 a b) else 0 := by
  unfold k0_pay1
  simp only [select, cmpi, subi, broadcast, shapeCast_self]
  rw [broadcastTo_apply _ broadcasts_S1024x1_S1024x2048 (ix2 a b) (ix2 a 0) (fun d => match d with
    | ⟨0, _⟩ => by show a.val = if (1024 : Nat) = 1 then 0 else a.val; rw [if_neg (by decide)]
    | ⟨1, _⟩ => by show 0 = if (1 : Nat) = 1 then 0 else b.val; rw [if_pos rfl])]
  have hi : iota Kind.tc S1024x2048 32 [1] iota_S1024x2048_d1_w32 (ix2 a b) = BitVec.ofNat 32 b.val := by
    show BitVec.ofNat 32 (0 * 2048 + b.val) = _; rw [Nat.zero_mul, Nat.zero_add]
  rw [hi, Ideal.ofBits_def, Ideal.ofBits_zero_f32]
  show (if BitVec.ofBool ((BitVec.ofNat 32 b.val).slt (v2 (ix2 a 0) - BitVec.ofNat 32 (g 1).val * 2048#32)) = 1 then v8 (ix2 a b) else 0) = _
  cases (BitVec.ofNat 32 b.val).slt (v2 (ix2 a 0) - BitVec.ofNat 32 (g 1).val * 2048#32) <;> simp

/-! ## What each grid point writes back -/

theorem hz : (![0, 0] : Fin 2 → Nat) = fun _ => 0 := funext fun a => by fin_cases a <;> rfl

/-- The printed index maps over the sixteen points: the tile of `x` and the tile written back are the same tile; the
    thresholds' tile is the same tile-row, its one column; tile-rows run to 7 and tile-columns to 1; and the point's
    second coordinate is its tile-column. -/
theorem idx_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 7
    ∧ win0_2.index t (1 : Fin 2) ≤ 1
    ∧ ((grid0.coords t) 1).val = win0_2.index t (1 : Fin 2) :=
  (by decide +kernel : ∀ t : Fin grid0.N, _)

/-- Every tile of the 8 × 2 tiling is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

set_option maxHeartbeats 400000 in
/-- WHAT POINT `t` WRITES BACK is tile `t` of the masked matrix, the thresholds being non-negative. -/
theorem flushed_eq (c : Dev nD) (hs : ∀ r : Fin 8192, 0 ≤ ((V m c main_v0 : S8192x1.Idx → BitVec 32) (ix2 r 0)).toInt) (t : Fin cfg0.N) :
    (dats m 0 c).flushed 2 t = ((cfg0.win 2).blk t).view.read (Elt Ideal)
      (keep (V m c main_arg0) (fun r => (V m c main_v0 : S8192x1.Idx → BitVec 32) (ix2 r 0))) := by
  show (cfg0.win 2).cut (grid0.coords t) ((dats m 0 c).after 2 t) = _
  rw [after0_2]
  unfold out0_2
  rw [View.canon_unit_zero hz]
  simp only [View.ld_unit_zero (S := S1024x1) hz, View.ld_unit_zero (S := S1024x2048) hz]
  obtain ⟨e00, e01, e10, e11, b0, b1, eg⟩ := idx_facts t
  refine funext fun (j : S1024x2048.Idx) => ?_
  show k0_pay1 (grid0.coords t) (iblk m c 1 t) (iblk m c 0 t) j
    = keep (V m c main_arg0) (fun r => (V m c main_v0 : S8192x1.Idx → BitVec 32) (ix2 r 0)) (((cfg0.win 2).blk t).view.emb j)
  obtain ⟨a, b, rfl⟩ : ∃ (a : Fin 1024) (b : Fin 2048), j = ix2 a b := ⟨j 0, j 1, eq_ix2 j⟩
  refine (pay_apply (grid0.coords t) (iblk m c 1 t) (iblk m c 0 t) a b).trans ?_
  refine keep_of_tile (V m c main_arg0) (fun r => (V m c main_v0 : S8192x1.Idx → BitVec 32) (ix2 r 0)) hs
    (((cfg0.win 2).blk t).view.emb (ix2 a b)) ((grid0.coords t) 1).val b.val (by omega) b.isLt ?_
    (iblk m c 1 t (ix2 a 0)) ?_ (iblk m c 0 t (ix2 a b)) ?_
  · -- the entry's column is the tile's offset plus the local column
    show win0_2.index t (1 : Fin 2) * 2048 + 1 * b.val = _; omega
  · -- the tile's threshold for local row a is the threshold of the entry's row
    show V m c main_v0 (((cfg0.win 1).blk t).view.emb (ix2 a 0)) = V m c main_v0 (ix2 (row (((cfg0.win 2).blk t).view.emb (ix2 a b))) 0)
    refine congrArg _ (funext fun d => Fin.ext ?_)
    match d with
    | ⟨0, _⟩ => show win0_1.index t (0 : Fin 2) * 1024 + 1 * a.val = win0_2.index t (0 : Fin 2) * 1024 + 1 * a.val; omega
    | ⟨1, _⟩ => show win0_1.index t (1 : Fin 2) * 1 + 1 * 0 = 0; omega
  · -- the tile of x and the tile written back are the same tile
    show V m c main_arg0 (((cfg0.win 0).blk t).view.emb (ix2 a b)) = V m c main_arg0 (((cfg0.win 2).blk t).view.emb (ix2 a b))
    refine congrArg _ (funext fun d => Fin.ext ?_)
    match d with
    | ⟨0, _⟩ => show win0_0.index t (0 : Fin 2) * 1024 + 1 * a.val = win0_2.index t (0 : Fin 2) * 1024 + 1 * a.val; omega
    | ⟨1, _⟩ => show win0_0.index t (1 : Fin 2) * 2048 + 1 * b.val = win0_2.index t (1 : Fin 2) * 2048 + 1 * b.val; omega

/-! ## The tiles cover the matrix -/

/-- An index of the array is in point `t`'s tile iff each coordinate is in the tile's range on its axis. -/
theorem mem_blk (t : Fin cfg0.N) (i : S8192x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

/-- Entry (r, j) lies in the tile of tile-row r / 1024 and tile-column j / 2048. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-! ## The result array, and the run -/

/-- THE RESULT ARRAY after the run is the masked matrix of the two argument arrays, the thresholds being non-negative. -/
theorem final (c : Dev nD) (hs : ∀ r : Fin 8192, 0 ≤ (m ((c : Thread nD τ).loc main_arg1) (ix1 r)).toInt) :
    (dats m 0 c).arrAt 2 cfg0.N
      = keep (m ((c : Thread nD τ).loc main_arg0)) (fun r => m ((c : Thread nD τ).loc main_arg1) (ix1 r)) := by
  rw [(dats m 0 c).arrAt_eq_of_cover 2 _ (fun t _ => flushed_eq m c (fun r => by rw [column_apply]; exact hs r) t) cover,
    V_main_arg0]
  exact congrArg _ (funext fun r => column_apply m c r)

/-- The kernel's run with its result named: every weakly fair execution ends with the result array at the masked
    matrix of the arguments and the arguments unchanged, when every threshold is non-negative. -/
theorem run (hs : ∀ (c : Dev nD) (r : Fin 8192), 0 ≤ (m ((c : Thread nD τ).loc main_arg1) (ix1 r)).toInt) :
    θ_run defs (onTc (τ := τ) (main (F := Ideal))) ⟨m, fun _ => 0, ρ⟩ fun r => ∀ c : Dev nD,
      r.2.mem ((c : Thread nD τ).loc main_v1)
        = keep (m ((c : Thread nD τ).loc main_arg0)) (fun r => m ((c : Thread nD τ).loc main_arg1) (ix1 r))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c (hs c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.MaskValue

end
-- ==== Proof.RefValue.lean ====
/-
  The reference's result, entry by entry.

  The reference lays the column numbers 0 … 4095 along every row, lays each row's threshold along that row, compares
  the two as signed words, reads the comparison's bit as the number 0 or 1, and multiplies `x` by it. Entry (r, j) is
  therefore `x (r, j) · [j <ₛ thr r]`, which is `x (r, j)` when the comparison holds and `0` when it does not
  (`mul_indicator`, on every extended real): the masked matrix `keep x thr`.
-/
import proofs.«106428_j86569360818324_2_alg».proof.Proof.Gen.ReferenceIdeal.Read
import proofs.«106428_j86569360818324_2_alg».proof.Proof.PrefixMask
import Idealize.ShloMosaic.PureOps.Ideal.Laws

noncomputable section

namespace Cert.ReferenceIdeal.MaskValue

open Cert.ReferenceIdeal Cert.ReferenceIdeal.Gen Cert.ReferenceIdeal.Read Idealize.ShloMosaic Idealize.ShloMosaic.TcCoe
open Idealize.ShloMosaic.ValueIdx
open Cert.PrefixMask

/-- THE REFERENCE IS THE SPECIFICATION: its last stage, as a function of the two arguments, is the masked matrix. -/
theorem result_eq (x0 : (⟨S8192x4096, .f32⟩ : BufTy).Contents (Elt Ideal)) (x1 : (⟨S8192, .i32⟩ : BufTy).Contents (Elt Ideal)) :
    val_main_v7 (F := Ideal) x0 x1 = keep x0 (fun r => x1 (ix1 r)) := by
  funext i
  -- the threshold laid along row r, read at (r, j), is threshold r
  have hrow : idx_main_v2 (idx_main_v4 i) = ix1 (row i) :=
    funext fun a => Fin.ext (by match a with | ⟨0, _⟩ => rfl)
  -- the column numbers laid along every row, read at (r, j), are j
  have hcol : val_main_v3 (F := Ideal) i = BitVec.ofNat 32 (i 1).val := by
    rw [val_main_v3_apply, val_main_v1_apply, val_main_v0_apply]
  rw [val_main_v7_apply, val_main_v6_apply, val_main_v5_apply, hcol, val_main_v4_apply, val_main_v2_apply, hrow]
  show x0 i * (((IntOp.cmpi .slt (BitVec.ofNat 32 (i 1).val) (x1 (ix1 (row i)))).toNat : ℝ) : EReal) = _
  rw [mul_indicator]
  unfold keep IntOp.cmpi
  simp only [ofBool_eq_one]

end Cert.ReferenceIdeal.MaskValue

end
-- ==== Proof.lean ====
/-
  Progressive masking of a matrix's rows: the tiled kernel against the whole-matrix reference.

  Both programs take an 8192 × 4096 matrix `x` and one signed 32-bit threshold per row, and return the matrix that
  keeps entry (r, j) when column j is below row r's threshold and is zero from that column on (`PrefixMask.keep`).

  * The reference compares the column number j with the threshold directly and multiplies `x` by the comparison's bit
    read as 0 or 1; on the extended reals `x · 1 = x` and `x · 0 = 0` for every `x`, so no finiteness is needed
    (`RefValue.result_eq`).
  * The kernel works tile by tile, 1024 rows by 2048 columns, and inside the tile of column offset p · 2048 compares the
    LOCAL column b with the threshold moved down by that offset. The two comparisons agree when the moved threshold
    does not wrap round the 32-bit range, which holds for every non-negative threshold (`PrefixMask.slt_tile`); the
    sixteen tiles cover the matrix (`KernelValue.final`).

  The precondition supplies exactly that: beside the finiteness of `x` (not used) it says every threshold is
  non-negative (`Thresholds.thresholds_nonneg`). Without it the two programs differ: at a threshold of −2³¹ the kernel's
  moved threshold in the second column tile is 2³¹ − 2048, above every local column, so the kernel keeps the whole
  second half of that row where the reference keeps nothing.

  The three frames are the programs' runs with the results forgotten; the kernel is its own idealization (the pass
  rewrote nothing), so that conjunct is trivial.
-/
import proofs.«106428_j86569360818324_2_alg».proof.Defs
import proofs.«106428_j86569360818324_2_alg».proof.Proof.Gen.Kernel
import proofs.«106428_j86569360818324_2_alg».proof.Proof.Gen.Kernel.Skeleton
import proofs.«106428_j86569360818324_2_alg».proof.Proof.Gen.Kernel.Launch
import proofs.«106428_j86569360818324_2_alg».proof.Proof.Gen.Kernel.Points
import proofs.«106428_j86569360818324_2_alg».proof.Proof.KernelFrame
import proofs.«106428_j86569360818324_2_alg».proof.Proof.Gen.KernelIdeal
import proofs.«106428_j86569360818324_2_alg».proof.Proof.Gen.KernelIdeal.Skeleton
import proofs.«106428_j86569360818324_2_alg».proof.Proof.Gen.KernelIdeal.Launch
import proofs.«106428_j86569360818324_2_alg».proof.Proof.Gen.KernelIdeal.Points
import proofs.«106428_j86569360818324_2_alg».proof.Proof.KernelIdealFrame
import proofs.«106428_j86569360818324_2_alg».proof.Proof.Gen.ReferenceIdeal
import proofs.«106428_j86569360818324_2_alg».proof.Proof.Gen.ReferenceIdeal.Run
import proofs.«106428_j86569360818324_2_alg».proof.Proof.Gen.ReferenceIdeal.Read
import proofs.«106428_j86569360818324_2_alg».proof.Proof.Gen.Pre_finite_inputs
import proofs.«106428_j86569360818324_2_alg».proof.Proof.PrefixMask
import proofs.«106428_j86569360818324_2_alg».proof.Proof.Thresholds
import proofs.«106428_j86569360818324_2_alg».proof.Proof.KernelValue
import proofs.«106428_j86569360818324_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on `x` and the thresholds, with every threshold non-negative, both programs end with the
    masked matrix `keep x thr` in their result arrays. -/
theorem algebraic : Cert.algebraic_KernelIdeal_ReferenceIdeal := by
  intro m ρ m' ρ' hpre hagree
  have hs : ∀ (c : Dev Cert.KernelIdeal.nD) (r : Fin 8192),
      0 ≤ (m ((c : Thread Cert.KernelIdeal.nD Cert.KernelIdeal.τ).loc Cert.KernelIdeal.main_arg1) (ix1 r)).toInt :=
    fun c r => Cert.Pre_finite_inputs.Decode.thresholds_nonneg _ _ (hpre c) r
  refine ⟨_, Cert.KernelIdeal.MaskValue.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.MaskValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
